-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S2048 : Shape := ⟨1, ![2048]⟩
abbrev S2048x1 : Shape := ⟨2, ![2048, 1]⟩
abbrev S1 : Shape := ⟨1, ![1]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x1 : S_.BroadcastsInDim S2048x1 (![] : Fin 0 → Fin S2048x1.rank)
  reducesTo_S2048x1_S_d0_1 : S2048x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S2048x1 1) : IVec S_ 1 :=
  let main_c_5 : IVec S_ 1 := constantI S_ 1 1#1
  let main_v17 : IVec S_ 1 := (fun x v => Host.reduce IntOp.andi x v reducesTo_S2048x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S16384x2048 .f32) (main_arg1 : FVec F S2048x2048 .f32) (main_arg2 : FVec F S2048 .f32) (main_arg3 : FVec F S2048x1 .f32) (main_arg4 : FVec F S1 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1 .f32 := Host.absf main_arg3
  let main_cst_4 : FVec F S_ .f32 := constant S_ .f32 0x7F800000#32
  let main_v15 : FVec F S2048x1 .f32 := broadcastInDim S2048x1 ![] bcast_S_S2048x1 main_cst_4
  let main_v16 : IVec S2048x1 1 := cmpf .olt main_v14 main_v15
  fn_part1 (F := F) main_arg4 main_v13 main_v16
-- ==== Kernel.lean ====
abbrev S16384x2048 : Shape := ⟨2, ![16384, 2048]⟩
abbrev S2048x2048 : Shape := ⟨2, ![2048, 2048]⟩
abbrev S2048 : Shape := ⟨1, ![2048]⟩
abbrev S2048x1 : Shape := ⟨2, ![2048, 1]⟩
abbrev S1 : Shape := ⟨1, ![1]⟩
abbrev S1x2048 : Shape := ⟨2, ![1, 2048]⟩
abbrev S1x1 : Shape := ⟨2, ![1, 1]⟩
abbrev S16x1x1024 : Shape := ⟨3, ![16, 1, 1024]⟩
abbrev S16384x1 : Shape := ⟨2, ![16384, 1]⟩
abbrev S1024x2048 : Shape := ⟨2, ![1024, 2048]⟩
abbrev S1x1x1024 : Shape := ⟨3, ![1, 1, 1024]⟩
abbrev S512x2048 : Shape := ⟨2, ![512, 2048]⟩
abbrev S512 : Shape := ⟨1, ![512]⟩
abbrev S1x1x512 : Shape := ⟨3, ![1, 1, 512]⟩

abbrev nBuf : Space → Nat
  | .hbm => 10
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S2048x1, .f32⟩
  | .hbm, ⟨4, _⟩ => ⟨S1, .f32⟩
  | .hbm, ⟨5, _⟩ => ⟨S1x2048, .f32⟩
  | .hbm, ⟨6, _⟩ => ⟨S1x2048, .f32⟩
  | .hbm, ⟨7, _⟩ => ⟨S1x1, .f32⟩
  | .hbm, ⟨8, _⟩ => ⟨S16x1x1024, .f32⟩
  | .hbm, ⟨9, _⟩ => ⟨S16384x1, .f32⟩
  | .local _ .vmem, ⟨0, _⟩ => ⟨S1024x2048, .f32⟩
  | .local _ .vmem, ⟨1, _⟩ => ⟨S1024x2048, .f32⟩
  | .local _ .vmem, ⟨2, _⟩ => ⟨S2048x2048, .f32⟩
  | .local _ .vmem, ⟨3, _⟩ => ⟨S1x2048, .f32⟩
  | .local _ .vmem, ⟨4, _⟩ => ⟨S1x2048, .f32⟩
  | .local _ .vmem, ⟨5, _⟩ => ⟨S1x1, .f32⟩
  | .local _ .vmem, ⟨6, _⟩ => ⟨S1x1x1024, .f32⟩
  | .local _ .vmem, ⟨7, _⟩ => ⟨S1x1x1024, .f32⟩
  | .local _ .vmem, ⟨8, _⟩ => ⟨S2048x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2048_S1x2048 : S2048.ShapeCasts S1x2048
  shapeCasts_S2048x1_S1x2048 : S2048x1.ShapeCasts S1x2048
  shapeCasts_S1_S1x1 : S1.ShapeCasts S1x1
  shapeCasts_S16x1x1024_S16384x1 : S16x1x1024.ShapeCasts S16384x1
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  shapeCasts_S2048x2048_S2048x2048 : S2048x2048.ShapeCasts S2048x2048
  packedbf16_S2048x2048_S2048x2048_0_0 : (Rect.unit (s := S2048x2048) ![0, 0] S2048x2048.size inb_S2048x2048_S2048x2048_0_0).PackedRows (EltTy.packing .bf16)
  inb_S1024x2048_S512x2048_0_0 : ∀ a, (![0, 0] : Fin 2 → Nat) a + S512x2048.size a ≤ S1024x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x1x1024_S1x1x512_0_0_0 : ∀ a, (![0, 0, 0] : Fin 3 → Nat) a + S1x1x512.size a ≤ S1x1x1024.size a
  h_S1x1x512 : 0 < S1x1x512.numel
  shapeCasts_S1x1x512_S512 : S1x1x512.ShapeCasts S512
  shapeCasts_S512_S1x1x512 : S512.ShapeCasts S1x1x512
  inb_S1024x2048_S512x2048_512_0 : ∀ a, (![512, 0] : Fin 2 → Nat) a + S512x2048.size a ≤ S1024x2048.size a
  inb_S1x1x1024_S1x1x512_0_0_512 : ∀ a, (![0, 0, 512] : Fin 3 → Nat) a + S1x1x512.size a ≤ S1x1x1024.size a
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S16x1x1024.size a
  hwx0_5 : ∀ i : grid0.Coords, EltTy.bits .f32 = 32 ∨ (Rect.block (s := S16x1x1024) S1x1x1024.size (cc0_transform_5 i) (hinb0_5 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S1x1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S2048 : Shape := ⟨1, ![2048]⟩
abbrev S2048x1 : Shape := ⟨2, ![2048, 1]⟩
abbrev S1 : Shape := ⟨1, ![1]⟩
abbrev S1x2048 : Shape := ⟨2, ![1, 2048]⟩
abbrev S_ : Shape := ⟨0, ![]⟩
abbrev S16384x1 : Shape := ⟨2, ![16384, 1]⟩
abbrev S1x1 : Shape := ⟨2, ![1, 1]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S2048x1, .f32⟩
  | .hbm, ⟨4, _⟩ => ⟨S1, .f32⟩
  | .hbm, ⟨5, _⟩ => ⟨S16384x2048, .f32⟩
  | .hbm, ⟨6, _⟩ => ⟨S1x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S16384x1, .f32⟩
  | .hbm, ⟨13, _⟩ => ⟨S1x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S16384x2048_S2048x2048_S16384x2048_1_0_0_1_n_n_wf : DotDims.WF S16384x2048 S2048x2048 S16384x2048 [1] [0] [0] [1] [] []
  dot_S16384x2048_S2048x1_S16384x1_1_0_0_1_n_n_wf : DotDims.WF S16384x2048 S2048x1 S16384x1 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S16384x2048_S2048x1_S16384x1_1_0_0_1_n_n : DotDims S16384x2048 S2048x1 S16384x1 where
  lhsContracting := [1]
  rhsContracting := [0]
  lhsNonContracting := [0]
  rhsNonContracting := [1]
  lhsBatch := []
  rhsBatch := []
  wf := dot_S16384x2048_S2048x1_S16384x1_1_0_0_1_n_n_wf

class Facts : Prop extends Facts₀ where

variable [Facts]
-- ==== Proof.SigmoidLaw.lean ====
/-
  The logistic function in its two spellings, on the extended reals: `1 / (1 + e^{-z})` and
  `1/2 · tanh (z/2) + 1/2` are one function of `z`, the infinities included
  (at `-∞` both are `0`, at `+∞` both are `1`; on the reals the identity is
  `a / (a + a⁻¹) = 1 / (1 + a⁻²)` with `a = e^{z/2}`).
-/
import Idealize.ShloMosaic.PureOps.Ideal

noncomputable section

namespace Cert.Lib.SigmoidLaw

open Idealize.ShloMosaic

/-- The f32 pattern of one half denotes the real `1/2`. -/
theorem ofBits_half : Ideal.ofBits .f32 0x3F000000#32 = ((1 / 2 : ℝ) : EReal) := by
  simp [Ideal.ofBits, Ideal.ieee, -EReal.coe_mul]; norm_num

/-- The f32 pattern of one denotes `1`. -/
theorem ofBits_one : Ideal.ofBits .f32 0x3F800000#32 = (1 : EReal) := by
  simp [Ideal.ofBits, Ideal.ieee, -EReal.coe_mul]; norm_num

/-- On the reals: `1/2 · tanh (r/2) + 1/2 = 1 / (1 + e^{-r})`. -/
theorem real_law (r : ℝ) : (1 / 2 : ℝ) * Real.tanh ((1 / 2) * r) + 1 / 2 = (1 + Real.exp (-r))⁻¹ := by
  have ha : 0 < Real.exp ((1 / 2) * r) := Real.exp_pos _
  have hb : Real.exp (-((1 / 2) * r)) = (Real.exp ((1 / 2) * r))⁻¹ := Real.exp_neg _
  have hc : Real.exp (-r) = (Real.exp ((1 / 2) * r))⁻¹ * (Real.exp ((1 / 2) * r))⁻¹ := by
    rw [← hb, ← Real.exp_add]; congr 1; ring
  rw [Real.tanh_eq_sinh_div_cosh, Real.sinh_eq, Real.cosh_eq, hb, hc]
  generalize Real.exp ((1 / 2) * r) = a at ha
  have ha' : a ≠ 0 := ha.ne'
  field_simp
  ring

/-- On the extended reals, with the constants as the f32 patterns a program spells them by. -/
theorem sigmoid_law (z : EReal) :
    Ideal.ofBits .f32 0x3F000000#32 * Ideal.tanh (Ideal.ofBits .f32 0x3F000000#32 * z) + Ideal.ofBits .f32 0x3F000000#32
      = Ideal.div (Ideal.ofBits .f32 0x3F800000#32) (Ideal.ofBits .f32 0x3F800000#32 + Ideal.exp (-z)) := by
  rw [ofBits_half, ofBits_one]
  show _ = Ideal.logistic z
  induction z using EReal.rec with
  | bot =>
    rw [EReal.coe_mul_bot_of_pos (by norm_num), Ideal.tanh_bot, Ideal.logistic_bot]
    rw [show (-1 : EReal) = ((-1 : ℝ) : EReal) from by rw [EReal.coe_neg, EReal.coe_one], ← EReal.coe_mul, ← EReal.coe_add]
    norm_num
  | top =>
    rw [EReal.coe_mul_top_of_pos (by norm_num), Ideal.tanh_top, Ideal.logistic_top]
    rw [show (1 : EReal) = ((1 : ℝ) : EReal) from EReal.coe_one.symm, ← EReal.coe_mul, ← EReal.coe_add]
    norm_num
  | coe r =>
    rw [← EReal.coe_mul, Ideal.tanh_coe, ← EReal.coe_mul, ← EReal.coe_add, Ideal.logistic_coe, real_law]

end Cert.Lib.SigmoidLaw

end
-- ==== Proof.Spec.lean ====
/-
  The function both programs compute, row by row, on the extended reals.
  For one row `xr` of the features: hidden unit `j` is `max (∑ₖ xr k · w1 k j + b1 j) 0`, the logit is
  `∑ⱼ hidden j · w2 j + b2`, and the result is the logistic function of the logit — which the kernel
  spells `1/2 · tanh (z/2) + 1/2` (`sigT`) and the reference `1 / (1 + e^{-z})` (`sigE`): one function
  (`sigT_eq_sigE`). Float literals stay the f32 patterns the programs print; the same pattern on both
  sides is never evaluated.
-/
import Idealize.ShloMosaic.PureOps.Ideal
import proofs.«181424_g53360673685582_cont_9to1c4b_587_19_alg».proof.Proof.SigmoidLaw

noncomputable section

namespace Cert.Spec

open Idealize.ShloMosaic

/-- Hidden unit `j` of one feature row `xr`: the affine layer followed by the maximum with the zero pattern. -/
def hidden (xr : Fin 2048 → EReal) (w1 : Fin 2048 → Fin 2048 → EReal) (b1 : Fin 2048 → EReal) (j : Fin 2048) : EReal :=
  max ((∑ k : Fin 2048, xr k * w1 k j) + b1 j) (Ideal.ofBits .f32 0x00000000#32)

/-- The logit of one feature row: the hidden units against the one output column, plus its bias. -/
def logit (xr : Fin 2048 → EReal) (w1 : Fin 2048 → Fin 2048 → EReal) (b1 : Fin 2048 → EReal) (w2 : Fin 2048 → EReal)
    (b2 : EReal) : EReal :=
  (∑ j : Fin 2048, hidden xr w1 b1 j * w2 j) + b2

/-- The logistic function as `1/2 · tanh (z/2) + 1/2`, the halves as the pattern `0x3F000000`. -/
def sigT (z : EReal) : EReal :=
  Ideal.ofBits .f32 0x3F000000#32 * Ideal.tanh (Ideal.ofBits .f32 0x3F000000#32 * z) + Ideal.ofBits .f32 0x3F000000#32

/-- The logistic function as `1 / (1 + e^{-z})`, the ones as the pattern `0x3F800000`. -/
def sigE (z : EReal) : EReal :=
  Ideal.div (Ideal.ofBits .f32 0x3F800000#32) (Ideal.ofBits .f32 0x3F800000#32 + Ideal.exp (-z))

/-- The two spellings are one function on the extended reals. -/
theorem sigT_eq_sigE (z : EReal) : sigT z = sigE z := Cert.Lib.SigmoidLaw.sigmoid_law z

end Cert.Spec

end
-- ==== Proof.Payload.lean ====
/-
  The kernel's stored values read at an index, at the extended reals.

  A stored row of the kernel is, at position q, sigT of the logit of feature row q: the [512, 2048] block of feature
  rows times the [2048, 2048] weights (a sum over the contraction coordinate, the zero accumulator adding nothing),
  plus the bias row, clamped below by the zero pattern, times the output column, summed over the 2048 hidden
  coordinates, plus the scalar bias; then half the hyperbolic tangent of half of it, plus a half. The narrowing of
  the feature block and of the weights is the identity on extended reals, and so is a shape cast of a shape to itself.
  Each operation that is not elementwise has one small lemma that reads it at an index given by coordinates; the
  elementwise ones read through by definition.
-/
import proofs.«181424_g53360673685582_cont_9to1c4b_587_19_alg».proof.Proof.Gen.KernelIdeal.Skeleton
import proofs.«181424_g53360673685582_cont_9to1c4b_587_19_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-- A [512] vector cast to [1, 1, 512] reads, at (0, 0, q), the operand at q. -/
theorem cast_row_apply {α : Type} (x : S512.Idx → α) (h : S512.ShapeCasts S1x1x512) (q : Fin 512) :
    shapeCast S1x1x512 x h (ix3 (0 : Fin 1) (0 : Fin 1) q) = x (ix1 q) :=
  shapeCast_apply x h _ _ (by
    rw [Shape.rowMajor_val_one, Shape.rowMajor_val_three]
    show q.val = (0 * 1 + 0) * 512 + q.val
    omega)

/-- The sum over axis 1 of a [512, 2048] vector reads, at q, the sum over j of the source at (q, j). -/
theorem rowsum_apply (src : FVec Ideal S512x2048 .f32) (h : S512x2048.Reduces [1] S512) (hφ : FKind.Formats .f32)
    (hacc : (0x00000000#32 : BitVec 32) = FKind.add.neutral .f32 hφ) (q : Fin 512) :
    multiReduction .add [1] S512 src 0x00000000#32 h hφ hacc (ix1 q) = ∑ j : Fin 2048, src (ix2 q j) :=
  (Ideal.multiReduction_add_single src _ h hφ hacc (ix1 q)).trans
    (Finset.sum_congr rfl fun j _ => congrArg src (funext fun a => Fin.ext (by
      match a with
      | ⟨0, _⟩ => rfl
      | ⟨1, _⟩ => rfl)))

/-- The one element of a [1, 1] vector. -/
theorem extract_apply {α : Type} (x : S1x1.Idx → α) (h : ∀ a, (![0, 0] : Fin 2 → Nat) a < S1x1.size a) :
    extractAt ![0, 0] x h = x (ix2 (0 : Fin 1) (0 : Fin 1)) :=
  congrArg x (funext fun a => Fin.ext (by
    match a with
    | ⟨0, _⟩ => rfl
    | ⟨1, _⟩ => rfl))

/-- The operand indices of the product at output index i and contraction index c: the left operand is read at
    (i 0, c), the right operand at (c, i 1). -/
theorem lhs_coord0 (i : S512x2048.Idx) (c : dot_S512x2048_S2048x2048_S512x2048_1_0_0_1_n_n.contr.Idx) :
    (dot_S512x2048_S2048x2048_S512x2048_1_0_0_1_n_n.lhsIdx i c 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
theorem lhs_coord1 (i : S512x2048.Idx) (c : dot_S512x2048_S2048x2048_S512x2048_1_0_0_1_n_n.contr.Idx) :
    (dot_S512x2048_S2048x2048_S512x2048_1_0_0_1_n_n.lhsIdx i c 1).val = (c ⟨0, by decide⟩).val :=
  dot_S512x2048_S2048x2048_S512x2048_1_0_0_1_n_n.lhsIdx_val_of_single rfl i c
theorem rhs_coord0 (i : S512x2048.Idx) (c : dot_S512x2048_S2048x2048_S512x2048_1_0_0_1_n_n.contr.Idx) :
    (dot_S512x2048_S2048x2048_S512x2048_1_0_0_1_n_n.rhsIdx i c 0).val = (c ⟨0, by decide⟩).val :=
  dot_S512x2048_S2048x2048_S512x2048_1_0_0_1_n_n.rhsIdx_val_of_single rfl i c
theorem rhs_coord1 (i : S512x2048.Idx) (c : dot_S512x2048_S2048x2048_S512x2048_1_0_0_1_n_n.contr.Idx) :
    (dot_S512x2048_S2048x2048_S512x2048_1_0_0_1_n_n.rhsIdx i c 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- The product into the zero accumulator reads, at (q, j), the sum over k of the left operand at (q, k) times the
    right operand at (k, j). -/
theorem matmul_ix_apply (x : FVec Ideal S512x2048 .bf16) (w : FVec Ideal S2048x2048 .bf16) (q : Fin 512) (j : Fin 2048) :
    matmul dot_S512x2048_S2048x2048_S512x2048_1_0_0_1_n_n none x w (constant (F := Ideal) S512x2048 .f32 0x00000000#32) (ix2 q j)
      = ∑ k : Fin 2048, x (ix2 q k) * w (ix2 k j) := by
  simp only [matmul]
  rw [Ideal.matmul_constant_zero_apply, ← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 q j) ((contrEquiv1 dot_S512x2048_S2048x2048_S512x2048_1_0_0_1_n_n 2048 rfl rfl).symm k) = ix2 q k := funext fun a => Fin.ext (by
    match a with
    | ⟨0, _⟩ => exact lhs_coord0 _ _
    | ⟨1, _⟩ => exact (lhs_coord1 _ _).trans hk)
  have er : dot_S512x2048_S2048x2048_S512x2048_1_0_0_1_n_n.rhsIdx (ix2 q j) ((contrEquiv1 dot_S512x2048_S2048x2048_S512x2048_1_0_0_1_n_n 2048 rfl rfl).symm k) = ix2 k j := funext fun a => Fin.ext (by
    match a with
    | ⟨0, _⟩ => exact (rhs_coord0 _ _).trans hk
    | ⟨1, _⟩ => exact rhs_coord1 _ _)
  rw [el, er]

/-- A [1, 2048] row, cast to its own shape and broadcast over 512 rows, reads at (q, j) the row at j. -/
theorem row_apply {α : Type} (r : S1x2048.Idx → α) (hc : S1x2048.ShapeCasts S1x2048) (hb : S1x2048.Broadcasts S512x2048)
    (q : Fin 512) (j : Fin 2048) :
    broadcastTo S512x2048 (shapeCast S1x2048 r hc) hb (ix2 q j) = r (ix2 (0 : Fin 1) j) :=
  (congrArg (fun v => broadcastTo S512x2048 v hb (ix2 q j)) (shapeCast_self r hc)).trans (broadcastTo_1b_ab_apply r hb q j)

/-- The hidden layer at (q, j): the product plus the bias row, clamped below by the zero pattern. -/
theorem hidden_apply (x : FVec Ideal S512x2048 .bf16) (w1 : FVec Ideal S2048x2048 .bf16) (b1 : FVec Ideal S1x2048 .f32)
    (hc : S1x2048.ShapeCasts S1x2048) (hb : S1x2048.Broadcasts S512x2048) (q : Fin 512) (j : Fin 2048) :
    maximumf (addf (matmul dot_S512x2048_S2048x2048_S512x2048_1_0_0_1_n_n none x w1 (constant (F := Ideal) S512x2048 .f32 0x00000000#32))
        (broadcastTo S512x2048 (shapeCast S1x2048 b1 hc) hb)) (broadcast S512x2048 (Scalar.ofBits (F := Ideal) .f32 0x00000000#32)) (ix2 q j)
      = Cert.Spec.hidden (fun k => x (ix2 q k)) (fun k j => w1 (ix2 k j)) (fun j => b1 (ix2 (0 : Fin 1) j)) j := by
  unfold Cert.Spec.hidden
  exact congrArg₂ max (congrArg₂ (· + ·) (matmul_ix_apply x w1 q j) (row_apply b1 hc hb q j)) rfl

/-- The logit at q: the sum over j of the hidden layer at (q, j) times the output column at j, plus the bias. -/
theorem logit_apply (x : FVec Ideal S512x2048 .bf16) (w1 : FVec Ideal S2048x2048 .bf16) (b1 w2 : FVec Ideal S1x2048 .f32)
    (b2 : FVec Ideal S1x1 .f32) (hc : S1x2048.ShapeCasts S1x2048) (hb : S1x2048.Broadcasts S512x2048)
    (hr : S512x2048.Reduces [1] S512) (hφ : FKind.Formats .f32) (hacc : (0x00000000#32 : BitVec 32) = FKind.add.neutral .f32 hφ)
    (hp : ∀ a, (![0, 0] : Fin 2 → Nat) a < S1x1.size a) (q : Fin 512) :
    addf (multiReduction .add [1] S512
        (mulf (maximumf (addf (matmul dot_S512x2048_S2048x2048_S512x2048_1_0_0_1_n_n none x w1 (constant (F := Ideal) S512x2048 .f32 0x00000000#32))
            (broadcastTo S512x2048 (shapeCast S1x2048 b1 hc) hb)) (broadcast S512x2048 (Scalar.ofBits (F := Ideal) .f32 0x00000000#32)))
          (broadcastTo S512x2048 (shapeCast S1x2048 w2 hc) hb))
        0x00000000#32 hr hφ hacc) (broadcast S512 (extractAt ![0, 0] b2 hp)) (ix1 q)
      = Cert.Spec.logit (fun k => x (ix2 q k)) (fun k j => w1 (ix2 k j)) (fun j => b1 (ix2 (0 : Fin 1) j))
          (fun j => w2 (ix2 (0 : Fin 1) j)) (b2 (ix2 (0 : Fin 1) (0 : Fin 1))) := by
  unfold Cert.Spec.logit
  refine congrArg₂ (· + ·) ((rowsum_apply _ hr hφ hacc q).trans (Finset.sum_congr rfl fun j _ => ?_)) (extract_apply b2 hp)
  exact congrArg₂ (· * ·) (hidden_apply x w1 b1 hc hb q j) (row_apply w2 hc hb q j)

/-- The stored row at (0, 0, q): half the hyperbolic tangent of half the logit, plus a half. -/
theorem out_apply (z : FVec Ideal S512 .f32) (hs : S512.ShapeCasts S1x1x512) (q : Fin 512) :
    shapeCast S1x1x512 (addf (mulf (broadcast S512 (Scalar.ofBits (F := Ideal) .f32 0x3F000000#32))
        (tanh (mulf (broadcast S512 (Scalar.ofBits (F := Ideal) .f32 0x3F000000#32)) z)))
      (broadcast S512 (Scalar.ofBits (F := Ideal) .f32 0x3F000000#32))) hs (ix3 (0 : Fin 1) (0 : Fin 1) q)
      = Cert.Spec.sigT (z (ix1 q)) :=
  (cast_row_apply _ hs q).trans (by unfold Cert.Spec.sigT; rfl)

/-- The second stored row of a grid step at (0, 0, q): sigT of the logit of its feature row q. -/
theorem pay1_apply (v33 : FVec Ideal S512x2048 .bf16) (v34 : Vec Ideal S2048x2048 .bf16) (v36 : Vec Ideal S1x2048 .f32) (v42 : Vec Ideal S1x2048 .f32) (v47 : Vec Ideal S1x1 .f32) (q : Fin 512) :
    k0_pay1 (F := Ideal) v33 v34 v36 v42 v47 (ix3 (0 : Fin 1) (0 : Fin 1) q)
      = Cert.Spec.sigT (Cert.Spec.logit (fun k => v33 (ix2 q k)) (fun k j => v34 (ix2 k j)) (fun j => v36 (ix2 (0 : Fin 1) j)) (fun j => v42 (ix2 (0 : Fin 1) j)) (v47 (ix2 (0 : Fin 1) (0 : Fin 1)))) := by
  unfold k0_pay1
  exact (out_apply _ _ q).trans (congrArg Cert.Spec.sigT (logit_apply v33 v34 v36 v42 v47 _ _ _ _ _ _ q))

/-- The first stored row of a grid step at (0, 0, q): sigT of the logit of its feature row q (the feature block is
    narrowed first, which changes nothing). -/
theorem pay3_apply (v3 : Vec Ideal S512x2048 .f32) (v5 : Vec Ideal S2048x2048 .bf16) (v7 : Vec Ideal S1x2048 .f32) (v13 : Vec Ideal S1x2048 .f32) (v18 : Vec Ideal S1x1 .f32) (q : Fin 512) :
    k0_pay3 (F := Ideal) v3 v5 v7 v13 v18 (ix3 (0 : Fin 1) (0 : Fin 1) q)
      = Cert.Spec.sigT (Cert.Spec.logit (fun k => v3 (ix2 q k)) (fun k j => v5 (ix2 k j)) (fun j => v7 (ix2 (0 : Fin 1) j)) (fun j => v13 (ix2 (0 : Fin 1) j)) (v18 (ix2 (0 : Fin 1) (0 : Fin 1)))) := by
  unfold k0_pay3
  exact (out_apply _ _ q).trans (congrArg Cert.Spec.sigT (logit_apply (truncf .bf16 v3 bitsLt_bf16_f32) v5 v7 v13 v18 _ _ _ _ _ _ q))

/-- The narrowing of the weights and the cast of their shape to itself change nothing. -/
theorem pay2_eq (v61 : Vec Ideal S2048x2048 .f32) : k0_pay2 (F := Ideal) v61 = v61 := by
  unfold k0_pay2
  exact shapeCast_self _ _

/-- The narrowing of the feature block changes nothing. -/
theorem pay4_eq (v32 : Vec Ideal S512x2048 .f32) : k0_pay4 (F := Ideal) v32 = v32 := rfl

end Cert.KernelIdeal.Payload

end
-- ==== Proof.Pieces.lean ====
/-
  What the kernel's body leaves, per case of its one conditional, read as values on the extended reals.
  A grid point handles a [1024,2048] block of feature rows in two halves of 512 rows; each half stores, for each of its
  rows, the logistic function of the row's logit, into its half of the point's [1,1,1024] output block. At the first
  point the body first stores the weights into a buffer it keeps between points and reads them back; at the later
  points it reads what the first point left there. So in both cases the output block is one function of the block's
  row index — `blockVal` — of the feature block, the weights, the two bias/column rows and the scalar bias.
-/
import proofs.«181424_g53360673685582_cont_9to1c4b_587_19_alg».proof.Proof.Gen.KernelIdeal.Frame
import proofs.«181424_g53360673685582_cont_9to1c4b_587_19_alg».proof.Proof.Spec
import proofs.«181424_g53360673685582_cont_9to1c4b_587_19_alg».proof.Proof.Payload
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Pieces

open Cert.KernelIdeal Cert.KernelIdeal.Gen

open Cert.KernelIdeal.Payload

theorem hz2 : (![0, 0] : Fin 2 → Nat) = fun _ => 0 := funext fun a => by fin_cases a <;> rfl

/-- One output row of a feature block: the logistic function (in its tanh spelling) of the row's logit. -/
def rowVal (x0 : Vec Ideal S1024x2048 .f32) (w1 : S2048x2048.Idx → EReal) (b1 w2 : Vec Ideal S1x2048 .f32) (b2 : Vec Ideal S1x1 .f32) (q : Fin 1024) : EReal :=
  Cert.Spec.sigT (Cert.Spec.logit (fun k => x0 (ix2 q k)) (fun k j => w1 (ix2 k j)) (fun j => b1 (ix2 (0 : Fin 1) j)) (fun j => w2 (ix2 (0 : Fin 1) j)) (b2 (ix2 (0 : Fin 1) (0 : Fin 1))))

/-- The [1,1,1024] output block of a [1024,2048] feature block: entry (0,0,q) is row q's value. -/
def blockVal (x0 : Vec Ideal S1024x2048 .f32) (w1 : S2048x2048.Idx → EReal) (b1 w2 : Vec Ideal S1x2048 .f32) (b2 : Vec Ideal S1x1 .f32) : Vec Ideal S1x1x1024 .f32 :=
  fun y => rowVal x0 w1 b1 w2 b2 ⟨(y 2).val, (y 2).isLt⟩

/-- What the body leaves in the output block at a point after the first, the carried weights being `xs0`: both
    half-blocks of rows store the row values of their rows, so the block is `blockVal`. -/
theorem out_B (c : Dev nD) (i : grid0.Coords) (arg1 : Memref sig .tc .vmem S1024x2048 .f32) (harg1 : arg1.IsWhole) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1x1024 .f32) (harg6 : arg6.IsWhole) (arg7 : Memref sig .tc .vmem S2048x2048 .bf16) (harg7 : arg7.IsWhole) (hc0 : ¬cond0_0 i)
    (x0 : Vec Ideal S1024x2048 .f32) (x1 : Vec Ideal S2048x2048 .f32) (x2 : Vec Ideal S1x2048 .f32) (x3 : Vec Ideal S1x2048 .f32) (x4 : Vec Ideal S1x1 .f32) (xs0 : Vec Ideal S2048x2048 .bf16) (y : S1x1x1024.Idx) :
    out0_B_5 (F := Ideal) c i arg1 harg1 arg2 harg2 arg3 harg3 arg4 harg4 arg5 harg5 arg6 harg6 arg7 harg7 hc0 x0 x1 x2 x3 x4 xs0 y = blockVal x0 xs0 x2 x3 x4 y := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  refine View.canon_apply_of_pieces (blockVal x0 xs0 x2 x3 x4) _ ?_ y (cover0_B_5 c i arg1 harg1 arg2 harg2 arg3 harg3 arg4 harg4 arg5 harg5 arg6 harg6 arg7 harg7 hc0 x0 x1 x2 x3 x4 xs0 y)
  unfold kernelRun0_B
  dsimp only
  sl_unfold_words
  intro p hp
  simp only [List.mem_cons, List.mem_nil_iff, or_false] at hp
  rcases hp with rfl | rfl
  · intro x
    dsimp only
    obtain ⟨a, b, q, rfl⟩ : ∃ (a : Fin 1) (b : Fin 1) (q : Fin 512), x = ix3 a b q := ⟨x 0, x 1, x 2, eq_ix3 x⟩
    obtain rfl : a = 0 := Subsingleton.elim _ _
    obtain rfl : b = 0 := Subsingleton.elim _ _
    simp only [View.readAt_eq_ld, harg1.read_unread, harg3.read_unread, harg4.read_unread, harg5.read_unread, harg7.read_unread,
      View.ld_unit_zero (S := S2048x2048) hz2, View.ld_unit_zero (S := S1x2048) hz2, View.ld_unit_zero (S := S1x1) hz2]
    refine (pay1_apply _ _ _ _ _ q).trans ?_
    rw [pay4_eq]
    unfold blockVal rowVal
    refine congrArg (fun f => Cert.Spec.sigT (Cert.Spec.logit f _ _ _ _)) (funext fun k => ?_)
    show x0 _ = x0 _
    refine congrArg x0 (funext fun a => Fin.ext ?_)
    match a with
    | ⟨0, _⟩ => rfl
    | ⟨1, _⟩ => show 0 + 1 * k.val = k.val; omega
  · intro x
    dsimp only
    obtain ⟨a, b, q, rfl⟩ : ∃ (a : Fin 1) (b : Fin 1) (q : Fin 512), x = ix3 a b q := ⟨x 0, x 1, x 2, eq_ix3 x⟩
    obtain rfl : a = 0 := Subsingleton.elim _ _
    obtain rfl : b = 0 := Subsingleton.elim _ _
    simp only [View.readAt_eq_ld, harg1.read_unread, harg3.read_unread, harg4.read_unread, harg5.read_unread, harg7.read_unread,
      View.ld_unit_zero (S := S2048x2048) hz2, View.ld_unit_zero (S := S1x2048) hz2, View.ld_unit_zero (S := S1x1) hz2]
    refine (pay3_apply _ _ _ _ _ q).trans ?_
    unfold blockVal rowVal
    refine congrArg (fun f => Cert.Spec.sigT (Cert.Spec.logit f _ _ _ _)) (funext fun k => ?_)
    show x0 _ = x0 _
    refine congrArg x0 (funext fun a => Fin.ext ?_)
    match a with
    | ⟨0, _⟩ => rfl
    | ⟨1, _⟩ => show 0 + 1 * k.val = k.val; omega

/-- What the body leaves in the output block at the first point, where it first stores the weights `x1` into the
    carried buffer and reads them back: the block is `blockVal` over `x1`. -/
theorem out_A (c : Dev nD) (i : grid0.Coords) (arg1 : Memref sig .tc .vmem S1024x2048 .f32) (harg1 : arg1.IsWhole) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1x1024 .f32) (harg6 : arg6.IsWhole) (arg7 : Memref sig .tc .vmem S2048x2048 .bf16) (harg7 : arg7.IsWhole) (hc0 : cond0_0 i)
    (x0 : Vec Ideal S1024x2048 .f32) (x1 : Vec Ideal S2048x2048 .f32) (x2 : Vec Ideal S1x2048 .f32) (x3 : Vec Ideal S1x2048 .f32) (x4 : Vec Ideal S1x1 .f32) (y : S1x1x1024.Idx) :
    out0_A_5 (F := Ideal) c i arg1 harg1 arg2 harg2 arg3 harg3 arg4 harg4 arg5 harg5 arg6 harg6 arg7 harg7 hc0 x0 x1 x2 x3 x4 y = blockVal x0 x1 x2 x3 x4 y := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  refine View.canon_apply_of_pieces (blockVal x0 x1 x2 x3 x4) _ ?_ y (cover0_A_5 c i arg1 harg1 arg2 harg2 arg3 harg3 arg4 harg4 arg5 harg5 arg6 harg6 arg7 harg7 hc0 x0 x1 x2 x3 x4 y)
  unfold kernelRun0_A
  dsimp only
  sl_unfold_words
  intro p hp
  simp only [List.mem_cons, List.mem_nil_iff, or_false] at hp
  rcases hp with rfl | rfl
  · intro x
    dsimp only
    obtain ⟨a, b, q, rfl⟩ : ∃ (a : Fin 1) (b : Fin 1) (q : Fin 512), x = ix3 a b q := ⟨x 0, x 1, x 2, eq_ix3 x⟩
    obtain rfl : a = 0 := Subsingleton.elim _ _
    obtain rfl : b = 0 := Subsingleton.elim _ _
    simp only [View.readAt_eq_ld, harg1.read_unread, harg2.read_unread, harg3.read_unread, harg4.read_unread, harg5.read_unread,
      View.readCov_unit_zero (S := S2048x2048) _ hz2, View.ld_unit_zero (S := S2048x2048) hz2, View.ld_unit_zero (S := S1x2048) hz2, View.ld_unit_zero (S := S1x1) hz2]
    refine (pay1_apply _ _ _ _ _ q).trans ?_
    rw [pay4_eq, pay2_eq]
    unfold blockVal rowVal
    refine congrArg (fun f => Cert.Spec.sigT (Cert.Spec.logit f _ _ _ _)) (funext fun k => ?_)
    show x0 _ = x0 _
    refine congrArg x0 (funext fun a => Fin.ext ?_)
    match a with
    | ⟨0, _⟩ => rfl
    | ⟨1, _⟩ => show 0 + 1 * k.val = k.val; omega
  · intro x
    dsimp only
    obtain ⟨a, b, q, rfl⟩ : ∃ (a : Fin 1) (b : Fin 1) (q : Fin 512), x = ix3 a b q := ⟨x 0, x 1, x 2, eq_ix3 x⟩
    obtain rfl : a = 0 := Subsingleton.elim _ _
    obtain rfl : b = 0 := Subsingleton.elim _ _
    simp only [View.readAt_eq_ld, harg1.read_unread, harg2.read_unread, harg3.read_unread, harg4.read_unread, harg5.read_unread,
      View.readCov_unit_zero (S := S2048x2048) _ hz2, View.ld_unit_zero (S := S2048x2048) hz2, View.ld_unit_zero (S := S1x2048) hz2, View.ld_unit_zero (S := S1x1) hz2]
    refine (pay3_apply _ _ _ _ _ q).trans ?_
    rw [pay2_eq]
    unfold blockVal rowVal
    refine congrArg (fun f => Cert.Spec.sigT (Cert.Spec.logit f _ _ _ _)) (funext fun k => ?_)
    show x0 _ = x0 _
    refine congrArg x0 (funext fun a => Fin.ext ?_)
    match a with
    | ⟨0, _⟩ => rfl
    | ⟨1, _⟩ => show 0 + 1 * k.val = k.val; omega

/-- What the first point leaves in the carried buffer: the weights (the cast to the narrower format is the identity on
    extended reals). -/
theorem sout_A (c : Dev nD) (i : grid0.Coords) (arg1 : Memref sig .tc .vmem S1024x2048 .f32) (harg1 : arg1.IsWhole) (arg2 : Memref sig .tc .vmem S2048x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1x1024 .f32) (harg6 : arg6.IsWhole) (arg7 : Memref sig .tc .vmem S2048x2048 .bf16) (harg7 : arg7.IsWhole) (hc0 : cond0_0 i)
    (x0 : Vec Ideal S1024x2048 .f32) (x1 : Vec Ideal S2048x2048 .f32) (x2 : Vec Ideal S1x2048 .f32) (x3 : Vec Ideal S1x2048 .f32) (x4 : Vec Ideal S1x1 .f32) :
    sout0_A_0 (F := Ideal) c i arg1 harg1 arg2 harg2 arg3 harg3 arg4 harg4 arg5 harg5 arg6 harg6 arg7 harg7 hc0 x0 x1 x2 x3 x4 = x1 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz2]
  simp only [View.readAt_eq_ld, harg2.read_unread, View.ld_unit_zero (S := S2048x2048) hz2]
  exact pay2_eq x1

end Cert.KernelIdeal.Pieces

end
-- ==== Proof.BlockReads.lean ====
/-
  What each window's block at grid point t is, read off the arrays the kernel's call receives, and that the sixteen
  output blocks cover the output array.

  A block's coordinate on an axis is always the block index times the block's extent plus the coordinate inside the
  block. The block indices are decided once over the sixteen grid points: the feature rows [16384, 2048] move in blocks
  [1024, 2048] at block index (t, 0); the weights [2048, 2048], the two rows [1, 2048] and the one-element array [1, 1]
  are whole arrays at block index (0, 0); the output [16, 1, 1024] moves in blocks [1, 1, 1024] at block index
  (t, 0, 0). So the feature block at (q, k) is the feature array at (1024 t + q, k), each of the four others is its
  array, the output block's element y sits at row t and lane y 2, and an index i of the output array lies in the block
  of point i 0, which writes back.
-/
import proofs.«181424_g53360673685582_cont_9to1c4b_587_19_alg».proof.Proof.Gen.KernelIdeal.Frame
import Idealize.ShloMosaic.Lib.Pipeline.Value
import Idealize.ShloMosaic.Lib.ValueIdx
import Idealize.ShloMosaic.Lib.Tactic

noncomputable section

namespace Cert.KernelIdeal.BlockReads

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- The block index of every window at grid point t: the feature rows and the output move with t, the other four stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The feature block at point t reads, at (q, k), the feature array at (1024 t + q, k). -/
theorem xblk_apply (c : Dev nD) (t : Fin cfg0.N) (q : Fin 1024) (k : Fin 2048) (h : t.val * 1024 + q.val < 16384) :
    (iblk m c 0 t : Vec F S1024x2048 .f32) (ix2 q k) = (V m c main_arg0 : S16384x2048.Idx → Elt F .f32) (ix2 (⟨t.val * 1024 + q.val, h⟩ : Fin 16384) k) := by
  obtain ⟨e0, e1, -⟩ := idx_facts t
  show (V m c main_arg0 : S16384x2048.Idx → Elt F .f32) (((cfg0.win 0).blk t).view.emb (ix2 q k)) = _
  refine congrArg (V m c main_arg0 : S16384x2048.Idx → Elt F .f32) (funext fun a => Fin.ext ?_)
  match a with
  | ⟨0, _⟩ => show win0_0.index t (0 : Fin 2) * 1024 + 1 * q.val = t.val * 1024 + q.val; rw [e0]; omega
  | ⟨1, _⟩ => show win0_0.index t (1 : Fin 2) * 2048 + 1 * k.val = k.val; rw [e1]; omega

/-- The weight block at every point is the whole weight array. -/
theorem w1blk_apply (c : Dev nD) (t : Fin cfg0.N) (k j : Fin 2048) :
    (iblk m c 1 t : Vec F S2048x2048 .f32) (ix2 k j) = (V m c main_arg1 : S2048x2048.Idx → Elt F .f32) (ix2 k j) := by
  obtain ⟨-, -, e0, e1, -⟩ := idx_facts t
  show (V m c main_arg1 : S2048x2048.Idx → Elt F .f32) (((cfg0.win 1).blk t).view.emb (ix2 k j)) = _
  refine congrArg (V m c main_arg1 : S2048x2048.Idx → Elt F .f32) (funext fun a => Fin.ext ?_)
  match a with
  | ⟨0, _⟩ => show win0_1.index t (0 : Fin 2) * 2048 + 1 * k.val = k.val; rw [e0]; omega
  | ⟨1, _⟩ => show win0_1.index t (1 : Fin 2) * 2048 + 1 * j.val = j.val; rw [e1]; omega

/-- The hidden bias block at every point is the whole bias row. -/
theorem b1blk_apply (c : Dev nD) (t : Fin cfg0.N) (j : Fin 2048) :
    (iblk m c 2 t : Vec F S1x2048 .f32) (ix2 (0 : Fin 1) j) = (V m c main_call0_v0 : S1x2048.Idx → Elt F .f32) (ix2 (0 : Fin 1) j) := by
  obtain ⟨-, -, -, -, e0, e1, -⟩ := idx_facts t
  show (V m c main_call0_v0 : S1x2048.Idx → Elt F .f32) (((cfg0.win 2).blk t).view.emb (ix2 (0 : Fin 1) j)) = _
  refine congrArg (V m c main_call0_v0 : S1x2048.Idx → Elt F .f32) (funext fun a => Fin.ext ?_)
  match a with
  | ⟨0, _⟩ => show win0_2.index t (0 : Fin 2) * 1 + 1 * 0 = 0; rw [e0]
  | ⟨1, _⟩ => show win0_2.index t (1 : Fin 2) * 2048 + 1 * j.val = j.val; rw [e1]; omega

/-- The output column block at every point is the whole row. -/
theorem w2blk_apply (c : Dev nD) (t : Fin cfg0.N) (j : Fin 2048) :
    (iblk m c 3 t : Vec F S1x2048 .f32) (ix2 (0 : Fin 1) j) = (V m c main_call0_v1 : S1x2048.Idx → Elt F .f32) (ix2 (0 : Fin 1) j) := by
  obtain ⟨-, -, -, -, -, -, e0, e1, -⟩ := idx_facts t
  show (V m c main_call0_v1 : S1x2048.Idx → Elt F .f32) (((cfg0.win 3).blk t).view.emb (ix2 (0 : Fin 1) j)) = _
  refine congrArg (V m c main_call0_v1 : S1x2048.Idx → Elt F .f32) (funext fun a => Fin.ext ?_)
  match a with
  | ⟨0, _⟩ => show win0_3.index t (0 : Fin 2) * 1 + 1 * 0 = 0; rw [e0]
  | ⟨1, _⟩ => show win0_3.index t (1 : Fin 2) * 2048 + 1 * j.val = j.val; rw [e1]; omega

/-- The output bias block at every point is the one-element array. -/
theorem b2blk_apply (c : Dev nD) (t : Fin cfg0.N) :
    (iblk m c 4 t : Vec F S1x1 .f32) (ix2 (0 : Fin 1) (0 : Fin 1)) = (V m c main_call0_v2 : S1x1.Idx → Elt F .f32) (ix2 (0 : Fin 1) (0 : Fin 1)) := by
  obtain ⟨-, -, -, -, -, -, -, -, e0, e1, -⟩ := idx_facts t
  show (V m c main_call0_v2 : S1x1.Idx → Elt F .f32) (((cfg0.win 4).blk t).view.emb (ix2 (0 : Fin 1) (0 : Fin 1))) = _
  refine congrArg (V m c main_call0_v2 : S1x1.Idx → Elt F .f32) (funext fun a => Fin.ext ?_)
  match a with
  | ⟨0, _⟩ => show win0_4.index t (0 : Fin 2) * 1 + 1 * 0 = 0; rw [e0]
  | ⟨1, _⟩ => show win0_4.index t (1 : Fin 2) * 1 + 1 * 0 = 0; rw [e1]

/-- Where the output block's element y sits in the [16, 1, 1024] array: row t, lane y 2. -/
theorem out_emb (t : Fin cfg0.N) (y : S1x1x1024.Idx) :
    ((((cfg0.win 5).blk t).view.emb y) (0 : Fin 3)).val = t.val ∧ ((((cfg0.win 5).blk t).view.emb y) (2 : Fin 3)).val = (y 2).val := by
  obtain ⟨-, -, -, -, -, -, -, -, -, -, e0, -, e2⟩ := idx_facts t
  have hy : (y 0).val < 1 := (y 0).isLt
  constructor
  · show win0_5.index t (0 : Fin 3) * 1 + 1 * (y 0).val = t.val
    rw [e0]; omega
  · show win0_5.index t (2 : Fin 3) * 1024 + 1 * (y 2).val = (y 2).val
    rw [e2]; omega

/-- An index of the output array is in point t's block iff each coordinate is in the block's range on its axis. -/
theorem mem_blk (t : Fin cfg0.N) (i : S16x1x1024.Idx) :
    i ∈ ((cfg0.win 5).blk t).view.set ↔ ∀ a : Fin 3, win0_5.index t a * S1x1x1024.size a ≤ (i a).val ∧ (i a).val < win0_5.index t a * S1x1x1024.size a + S1x1x1024.size a := by
  show i ∈ ((View.whole main_call0_v3).slice (win0_5.rect t)).set ↔ _
  rw [View.set_slice_whole, Rect.mem_set_unit]
  exact Iff.rfl

/-- The sixteen output blocks cover the output array: the index i is in the block of point i 0, which writes back. -/
theorem cover (i : S16x1x1024.Idx) : ∃ t : Fin cfg0.N, (cfg0.win 5).flush t = true ∧ i ∈ ((cfg0.win 5).blk t).view.set := by
  have hN : cfg0.N = 16 := N_0
  have h0 : (i 0).val < 16 := (i 0).isLt
  have h1 : (i 1).val < 1 := (i 1).isLt
  have h2 : (i 2).val < 1024 := (i 2).isLt
  obtain ⟨t, ht⟩ : ∃ t : Fin cfg0.N, t.val = (i 0).val := ⟨⟨(i 0).val, by omega⟩, rfl⟩
  obtain ⟨-, -, -, -, -, -, -, -, -, -, e0, e1, e2⟩ := idx_facts t
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; rw [e0]; omega
  | ⟨1, _⟩ => show win0_5.index t (1 : Fin 3) * 1 ≤ (i 1).val ∧ (i 1).val < win0_5.index t (1 : Fin 3) * 1 + 1; rw [e1]; omega
  | ⟨2, _⟩ => show win0_5.index t (2 : Fin 3) * 1024 ≤ (i 2).val ∧ (i 2).val < win0_5.index t (2 : Fin 3) * 1024 + 1024; rw [e2]; omega

end Cert.KernelIdeal.BlockReads

end
-- ==== Proof.Blocks.lean ====
/-
  From the body's blocks to the whole result, on the extended reals.
  The weights the first grid point stores into the kept buffer stay there for every later point (induction on the
  point), so every point's [1,1,1024] output block is `blockVal` of that point's [1024,2048] block of feature rows and
  of the SAME weights; read through the windows' index maps, point `t` therefore writes back block `t` of ONE function
  `Gout` of the arrays the pallas_call receives: entry (t, 0, q) is the logistic value of feature row 1024·t + q. The
  sixteen blocks tile the [16,1,1024] array, so the array ends holding `Gout`.
-/
import proofs.«181424_g53360673685582_cont_9to1c4b_587_19_alg».proof.Proof.Pieces
import proofs.«181424_g53360673685582_cont_9to1c4b_587_19_alg».proof.Proof.BlockReads
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Pieces Cert.KernelIdeal.BlockReads

variable (m : (ℓ : Loc nD τ sig) → Buf (Elt Ideal) ℓ) (ρ : Dev nD → PrngReg)

/-! ## The kept buffer holds the first point's weights at every point -/

/-- After every point the kept buffer holds what the first point stored: the first point's block of the weights
    (`t0` is the first point; by induction on the point). -/
theorem scratch_eq (c : Dev nD) (t0 : Fin cfg0.N) (ht0 : t0.val = 0) : ∀ (n : ℕ) (t : Fin cfg0.N), t.val = n →
    (outsAt0 (F := Ideal) m c t.val t.isLt).2 = (iblk m c 1 t0 : Vec Ideal S2048x2048 .f32) := by
  have hN : cfg0.N = 16 := N_0
  intro n
  induction n with
  | zero =>
    intro t ht
    obtain rfl : t = t0 := Fin.ext (by rw [ht, ht0])
    rw [outsAt0_A m c t (by rw [ht0])]
    dsimp only
    exact sout_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr (by rw [ht0])) (iblk m c 0 t) (iblk m c 1 t) (iblk m c 2 t) (iblk m c 3 t) (iblk m c 4 t)
  | succ n ih =>
    intro t ht
    have hlt : t.val < 16 := lt_of_lt_of_eq t.isLt hN
    have hB : ¬t.val % 16 = 0 := by omega
    rw [outsAt0_B m c t hB]
    dsimp only
    unfold sout0_B_0
    show (outsAt0 (F := Ideal) m c (t.val - 1) _).2 = _
    exact ih ⟨t.val - 1, Nat.lt_of_le_of_lt (Nat.sub_le _ _) t.isLt⟩ (by show t.val - 1 = n; omega)

/-- So every point's output block is `blockVal` of its own feature block and of the first point's weights. -/
theorem out_eq (c : Dev nD) (t0 : Fin cfg0.N) (ht0 : t0.val = 0) (t : Fin cfg0.N) (y : S1x1x1024.Idx) :
    (outsAt0 (F := Ideal) m c t.val t.isLt).1 y
      = blockVal (iblk m c 0 t) (iblk m c 1 t0 : Vec Ideal S2048x2048 .f32) (iblk m c 2 t) (iblk m c 3 t) (iblk m c 4 t) y := by
  have hN : cfg0.N = 16 := N_0
  have hlt : t.val < 16 := lt_of_lt_of_eq t.isLt hN
  by_cases h0 : t.val % 16 = 0
  · obtain rfl : t = t0 := Fin.ext (by rw [ht0]; omega)
    rw [outsAt0_A m c t h0]
    dsimp only
    exact out_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t) y
  · rw [outsAt0_B m c t h0]
    dsimp only
    refine (out_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 (F := Ideal) m c (t.val - 1) (Nat.lt_of_le_of_lt (Nat.sub_le _ _) t.isLt)).2 y).trans ?_
    rw [scratch_eq m c t0 ht0 (t.val - 1) ⟨t.val - 1, Nat.lt_of_le_of_lt (Nat.sub_le _ _) t.isLt⟩ rfl]

/-! ## One function of the arrays the pallas_call receives -/

/-- Row `n` of the features at column `k` (zero past the last row; never read there). -/
def rowOf (X : S16384x2048.Idx → EReal) (n : ℕ) (k : Fin 2048) : EReal :=
  if h : n < 16384 then X (ix2 (⟨n, h⟩ : Fin 16384) k) else 0

theorem rowOf_mk (X : S16384x2048.Idx → EReal) (n : ℕ) (h : n < 16384) (k : Fin 2048) :
    rowOf X n k = X (ix2 (⟨n, h⟩ : Fin 16384) k) := dif_pos h

/-- Entry (t, 0, q) of the [16,1,1024] array the pallas_call writes: the value of feature row 1024·t + q. -/
def Gout (X : S16384x2048.Idx → EReal) (W1 : S2048x2048.Idx → EReal) (B1 W2 : S1x2048.Idx → EReal) (B2 : S1x1.Idx → EReal) :
    S16x1x1024.Idx → EReal :=
  fun i => Cert.Spec.sigT (Cert.Spec.logit (fun k => rowOf X ((i 0).val * 1024 + (i 2).val) k) (fun k j => W1 (ix2 k j))
    (fun j => B1 (ix2 (0 : Fin 1) j)) (fun j => W2 (ix2 (0 : Fin 1) j)) (B2 (ix2 (0 : Fin 1) (0 : Fin 1))))

/-- A point's block value is `Gout` at the block's place in the array, once each loaded block is read off its array:
    the feature block `tv` rows-of-1024 down, the other four whole. -/
theorem blockVal_eq_Gout (X : S16384x2048.Idx → EReal) (W1 : S2048x2048.Idx → EReal) (B1 W2 : S1x2048.Idx → EReal) (B2 : S1x1.Idx → EReal)
    (x0 : Vec Ideal S1024x2048 .f32) (w1 : S2048x2048.Idx → EReal) (b1 w2 : Vec Ideal S1x2048 .f32) (b2 : Vec Ideal S1x1 .f32) (tv : ℕ)
    (hx : ∀ (q : Fin 1024) (k : Fin 2048), x0 (ix2 q k) = rowOf X (tv * 1024 + q.val) k)
    (hw1 : ∀ k j : Fin 2048, w1 (ix2 k j) = W1 (ix2 k j)) (hb1 : ∀ j : Fin 2048, b1 (ix2 (0 : Fin 1) j) = B1 (ix2 (0 : Fin 1) j))
    (hw2 : ∀ j : Fin 2048, w2 (ix2 (0 : Fin 1) j) = W2 (ix2 (0 : Fin 1) j))
    (hb2 : b2 (ix2 (0 : Fin 1) (0 : Fin 1)) = B2 (ix2 (0 : Fin 1) (0 : Fin 1)))
    (y : S1x1x1024.Idx) (i : S16x1x1024.Idx) (hi0 : (i 0).val = tv) (hi2 : (i 2).val = (y 2).val) :
    blockVal x0 w1 b1 w2 b2 y = Gout X W1 B1 W2 B2 i := by
  unfold blockVal rowVal Gout
  subst hi0
  rw [hi2]
  simp only [hx, hw1, hb1, hw2, hb2]

/-- WHAT POINT `t` WRITES BACK is block `t` of `Gout` of the arrays as the region finds them. -/
theorem flushed_eq (c : Dev nD) (t : Fin cfg0.N) :
    (dats m 0 c).flushed 5 t = ((cfg0.win 5).blk t).view.read (Elt Ideal)
      (Gout (V m c main_arg0) (V m c main_arg1) (V m c main_call0_v0) (V m c main_call0_v1) (V m c main_call0_v2)) := by
  have hN : cfg0.N = 16 := N_0
  have hlt : t.val < 16 := lt_of_lt_of_eq t.isLt hN
  show (cfg0.win 5).cut (grid0.coords t) ((dats m 0 c).after 5 t) = _
  rw [after0_5]
  funext j
  show (outsAt0 (F := Ideal) m c t.val t.isLt).1 j
    = Gout (V m c main_arg0) (V m c main_arg1) (V m c main_call0_v0) (V m c main_call0_v1) (V m c main_call0_v2) (((cfg0.win 5).blk t).view.emb j)
  rw [out_eq m c t0_0 rfl t j]
  obtain ⟨e0, e2⟩ := out_emb t j
  exact blockVal_eq_Gout (V m c main_arg0) (V m c main_arg1) (V m c main_call0_v0) (V m c main_call0_v1) (V m c main_call0_v2)
    (iblk m c 0 t) (iblk m c 1 t0_0) (iblk m c 2 t) (iblk m c 3 t) (iblk m c 4 t) t.val
    (fun q k => (xblk_apply m c t q k (by have := q.isLt; omega)).trans (rowOf_mk _ _ _ _).symm)
    (w1blk_apply m c t0_0) (b1blk_apply m c t) (w2blk_apply m c t) (b2blk_apply m c t) j (((cfg0.win 5).blk t).view.emb j) e0 e2

/-- The sixteen blocks tile the array, so it ends holding `Gout`. -/
theorem final (c : Dev nD) : (dats m 0 c).arrAt 5 cfg0.N
    = Gout (V m c main_arg0) (V m c main_arg1) (V m c main_call0_v0) (V m c main_call0_v1) (V m c main_call0_v2) :=
  (dats m 0 c).arrAt_eq_of_cover 5 _ (fun t _ => flushed_eq m c t) cover

end Cert.KernelIdeal.Blocks

end
-- ==== Proof.HostEnds.lean ====
/-
  The host operations around the kernel's one launch, read at an index. Before it, three reshapes that only add a unit
  axis or move one: the first bias `[2048] → [1, 2048]`, the second weight's one column `[2048, 1] → [1, 2048]`, the second
  bias `[1] → [1, 1]`. After it, one reshape of the result `[16, 1, 1024] → [16384, 1]`: row `r` is entry `r % 1024` of
  block `r / 1024`. A reshape keeps the row-major position, so each is an equation between positions.
-/
import proofs.«181424_g53360673685582_cont_9to1c4b_587_19_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.HostEnds

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]

variable (m : (ℓ : Loc nD τ sig) → Buf (Elt F) ℓ)

/-! ## Two reshapes at an index, over arrays of the literal shapes -/

/-- A column `[2048, 1]` laid out as a row `[1, 2048]`: entry `(0, j)` of the row is entry `(j, 0)` of the column, both at
    row-major position `j`. -/
theorem shapeCast_col_row_apply {α : Type} (x : S2048x1.Idx → α) (h : S2048x1.ShapeCasts S1x2048) (j : Fin 2048) :
    shapeCast S1x2048 x h (ix2 (0 : Fin 1) j) = x (ix2 j (0 : Fin 1)) :=
  shapeCast_apply x h _ _ (by
    rw [Shape.rowMajor_val_two, Shape.rowMajor_val_two]
    show j.val * 1 + 0 = 0 * 2048 + j.val
    omega)

/-- Sixteen blocks `[16, 1, 1024]` laid out as one column `[16384, 1]`: row `r` of the column is entry `b` of block `a`
    when `a · 1024 + b = r`, both at row-major position `r`. -/
theorem shapeCast_blocks_col_apply {α : Type} (x : S16x1x1024.Idx → α) (h : S16x1x1024.ShapeCasts S16384x1)
    (r : Fin 16384) (a : Fin 16) (b : Fin 1024) (hr : a.val * 1024 + b.val = r.val) :
    shapeCast S16384x1 x h (ix2 r (0 : Fin 1)) = x (ix3 a (0 : Fin 1) b) :=
  shapeCast_apply x h _ _ (by
    rw [Shape.rowMajor_val_three, Shape.rowMajor_val_two]
    show (a.val * 1 + 0) * 1024 + b.val = r.val * 1 + 0
    omega)

/-! ## Before the launch -/

/-- The first bias as the launch finds it is the argument with a unit axis in front. -/
theorem V_b1_eq (c : Dev nD) :
    (V m c main_call0_v0 : S1x2048.Idx → Elt F .f32)
      = shapeCast S1x2048 (m ((c : Thread nD τ).loc main_arg2) : S2048.Idx → Elt F .f32) shapeCasts_S2048_S1x2048 := by
  show StableHlo.after hostOps0 (fun b => m (c, b)) (Proc.devRef .tc main_call0_v0) = _
  after_results
  rfl

/-- Entry `(0, j)` of the reshaped first bias is entry `j` of the argument. -/
theorem V_b1_apply (c : Dev nD) (j : Fin 2048) :
    (V m c main_call0_v0 : S1x2048.Idx → Elt F .f32) (ix2 (0 : Fin 1) j) = (m ((c : Thread nD τ).loc main_arg2) : S2048.Idx → Elt F .f32) (ix1 j) := by
  rw [V_b1_eq]
  exact shapeCast_a_1a_apply _ _ _ _

/-- The second weight as the launch finds it is its one column laid out as one row. -/
theorem V_w2_eq (c : Dev nD) :
    (V m c main_call0_v1 : S1x2048.Idx → Elt F .f32)
      = shapeCast S1x2048 (m ((c : Thread nD τ).loc main_arg3) : S2048x1.Idx → Elt F .f32) shapeCasts_S2048x1_S1x2048 := by
  show StableHlo.after hostOps0 (fun b => m (c, b)) (Proc.devRef .tc main_call0_v1) = _
  after_results
  rfl

/-- Entry `(0, j)` of that row is entry `(j, 0)` of the column. -/
theorem V_w2_apply (c : Dev nD) (j : Fin 2048) :
    (V m c main_call0_v1 : S1x2048.Idx → Elt F .f32) (ix2 (0 : Fin 1) j) = (m ((c : Thread nD τ).loc main_arg3) : S2048x1.Idx → Elt F .f32) (ix2 j (0 : Fin 1)) := by
  rw [V_w2_eq]
  exact shapeCast_col_row_apply _ _ j

/-- The second bias as the launch finds it is the argument with a unit axis in front. -/
theorem V_b2_eq (c : Dev nD) :
    (V m c main_call0_v2 : S1x1.Idx → Elt F .f32)
      = shapeCast S1x1 (m ((c : Thread nD τ).loc main_arg4) : S1.Idx → Elt F .f32) shapeCasts_S1_S1x1 := by
  show StableHlo.after hostOps0 (fun b => m (c, b)) (Proc.devRef .tc main_call0_v2) = _
  after_results
  rfl

/-- Its one entry is the argument's one entry. -/
theorem V_b2_apply (c : Dev nD) :
    (V m c main_call0_v2 : S1x1.Idx → Elt F .f32) (ix2 (0 : Fin 1) (0 : Fin 1)) = (m ((c : Thread nD τ).loc main_arg4) : S1.Idx → Elt F .f32) (ix1 (0 : Fin 1)) := by
  rw [V_b2_eq]
  exact shapeCast_a_1a_apply _ _ _ _

/-! ## After the launch -/

/-- The result after the launch is the launch's output array, `[16, 1, 1024]`, reshaped to one column. -/
theorem tail_eq (c : Dev nD) :
    (Pipeline.afterTail₀ cfgs (dats m) 0 (V0 m) [hostOps1] c main_v0 : S16384x1.Idx → Elt F .f32)
      = shapeCast S16384x1 ((dats m 0 c).arrAt 5 cfg0.N : S16x1x1024.Idx → Elt F .f32) shapeCasts_S16x1x1024_S16384x1 := by
  unfold Pipeline.afterTail₀
  show StableHlo.after hostOps1 _ (Proc.devRef .tc main_v0) = _
  after_results
  exact congrArg (fun y : S16x1x1024.Idx → Elt F .f32 => shapeCast S16384x1 y shapeCasts_S16x1x1024_S16384x1)
    (Pipeline.withArrays_arr spec0 launch0.win.arr_inj c (V0 m c) (fun w => (dats m 0 c).arrAt w cfg0.N) 5)

/-- Row `r` of the result is entry `r % 1024` of block `r / 1024` of the launch's output. -/
theorem tail_apply (c : Dev nD) (r : Fin 16384) :
    (Pipeline.afterTail₀ cfgs (dats m) 0 (V0 m) [hostOps1] c main_v0 : S16384x1.Idx → Elt F .f32) (ix2 r (0 : Fin 1))
      = ((dats m 0 c).arrAt 5 cfg0.N : S16x1x1024.Idx → Elt F .f32) (ix3 (⟨r.val / 1024, by omega⟩ : Fin 16) (0 : Fin 1) (⟨r.val % 1024, Nat.mod_lt _ (by decide)⟩ : Fin 1024)) := by
  rw [tail_eq]
  exact shapeCast_blocks_col_apply _ _ r _ _ (by show r.val / 1024 * 1024 + r.val % 1024 = r.val; omega)

end Cert.KernelIdeal.HostEnds

end
-- ==== Proof.ResultSpec.lean ====
/-
  The whole result as one function of the five argument arrays: entry (r, 0) of the [16384,1] result is the logistic
  function (in its tanh spelling) of the logit of feature row r — the hidden layer of the row against the one output
  column, plus the bias. Both programs are compared with this function.
-/
import proofs.«181424_g53360673685582_cont_9to1c4b_587_19_alg».proof.Proof.Spec
import Idealize.ShloMosaic.Lib.ValueIdx

noncomputable section

namespace Cert.Spec

open Idealize.ShloMosaic Idealize.ShloMosaic.ValueIdx

/-- The result array of the network on the extended reals, from the features `X`, the first layer `W1`, `B1`
    and the output column `W2` with its bias `B2`. -/
def result (X : (⟨2, ![16384, 2048]⟩ : Shape).Idx → EReal) (W1 : (⟨2, ![2048, 2048]⟩ : Shape).Idx → EReal)
    (B1 : (⟨1, ![2048]⟩ : Shape).Idx → EReal) (W2 : (⟨2, ![2048, 1]⟩ : Shape).Idx → EReal)
    (B2 : (⟨1, ![1]⟩ : Shape).Idx → EReal) : (⟨2, ![16384, 1]⟩ : Shape).Idx → EReal :=
  fun i => sigT (logit (fun k => X (ix2 (⟨(i 0).val, (i 0).isLt⟩ : Fin 16384) k)) (fun k j => W1 (ix2 k j)) (fun j => B1 (ix1 j))
    (fun j => W2 (ix2 j (0 : Fin 1))) (B2 (ix1 (0 : Fin 1))))

/-- At row `r`. -/
theorem result_apply (X : (⟨2, ![16384, 2048]⟩ : Shape).Idx → EReal) (W1 : (⟨2, ![2048, 2048]⟩ : Shape).Idx → EReal)
    (B1 : (⟨1, ![2048]⟩ : Shape).Idx → EReal) (W2 : (⟨2, ![2048, 1]⟩ : Shape).Idx → EReal)
    (B2 : (⟨1, ![1]⟩ : Shape).Idx → EReal) (r : Fin 16384) :
    result X W1 B1 W2 B2 (ix2 r (0 : Fin 1))
      = sigT (logit (fun k => X (ix2 r k)) (fun k j => W1 (ix2 k j)) (fun j => B1 (ix1 j)) (fun j => W2 (ix2 j (0 : Fin 1))) (B2 (ix1 (0 : Fin 1)))) := rfl

end Cert.Spec

end
-- ==== Proof.KernelRun.lean ====
/-
  The kernel's program, run: on the extended reals its result array ends at `Cert.Spec.result` of the argument arrays,
  and the argument arrays end unchanged. After the pallas_call the [16,1,1024] array holds, at (t, 0, q), the value of
  feature row 1024·t + q; the reshape to [16384,1] puts it at row 1024·t + q; and the three reshaped operands the
  pallas_call received are the bias row, the output column and the scalar bias of the arguments.
-/
import proofs.«181424_g53360673685582_cont_9to1c4b_587_19_alg».proof.Proof.Blocks
import proofs.«181424_g53360673685582_cont_9to1c4b_587_19_alg».proof.Proof.HostEnds
import proofs.«181424_g53360673685582_cont_9to1c4b_587_19_alg».proof.Proof.ResultSpec

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.KernelIdeal.Blocks Cert.KernelIdeal.HostEnds

variable (m : (ℓ : Loc nD τ sig) → Buf (Elt Ideal) ℓ) (ρ : Dev nD → PrngReg)

/-- What the lines after the pallas_call leave in the result: `Cert.Spec.result` of the argument arrays. -/
theorem result_v0 (c : Dev nD) :
    Pipeline.afterTail₀ cfgs (dats m) 0 (V0 m) [hostOps1] c main_v0
      = Cert.Spec.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext i
  obtain ⟨r, z, rfl⟩ : ∃ (r : Fin 16384) (z : Fin 1), i = ix2 r z := ⟨i 0, i 1, eq_ix2 i⟩
  obtain rfl : z = 0 := Subsingleton.elim _ _
  refine (tail_apply m c r).trans ?_
  rw [final m c, Cert.Spec.result_apply]
  have hr : r.val / 1024 * 1024 + r.val % 1024 = r.val := Nat.div_add_mod' r.val 1024
  have e : ∀ k : Fin 2048, rowOf (V m c main_arg0) (r.val / 1024 * 1024 + r.val % 1024) k
      = m ((c.tc : Thread nD τ).loc main_arg0) (ix2 r k) := fun k => by
    rw [rowOf_mk _ _ (by rw [hr]; exact r.isLt) k, V_main_arg0]
    exact congrArg (fun s : Fin 16384 => m ((c.tc : Thread nD τ).loc main_arg0) (ix2 s k)) (Fin.ext hr)
  show Cert.Spec.sigT (Cert.Spec.logit (fun k => rowOf (V m c main_arg0) (r.val / 1024 * 1024 + r.val % 1024) k)
      (fun k j => V m c main_arg1 (ix2 k j)) (fun j => V m c main_call0_v0 (ix2 (0 : Fin 1) j))
      (fun j => V m c main_call0_v1 (ix2 (0 : Fin 1) j)) (V m c main_call0_v2 (ix2 (0 : Fin 1) (0 : Fin 1)))) = _
  rw [funext e, funext (V_b1_apply m c), funext (V_w2_apply m c), V_b2_apply m c, V_main_arg1 m c]

/-- The run, read: the result at `Cert.Spec.result` of the arguments, the arguments unchanged. -/
theorem run : θ_run defs (onTc (τ := τ) (main (F := Ideal))) ⟨m, fun _ => 0, ρ⟩ fun r => ∀ c : Dev nD,
      r.2.mem ((c.tc : Thread nD τ).loc main_v0)
        = Cert.Spec.result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v0 (Pipeline.mem_restRefs_of main_v0 (by decide) (by decide))).trans (result_v0 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelRun

end
-- ==== Proof.RefValue.lean ====
/-
  The reference's result read at a row. Row `r` of the reference's one output column is the logistic function,
  spelt `1 / (1 + e^{-z})`, of the logit `z` of feature row `r`: the hidden units `max (∑ₖ x r k · w1 k j + b1 j) 0`
  against the one output column of the second weight, plus its bias.
-/
import proofs.«181424_g53360673685582_cont_9to1c4b_587_19_alg».proof.Proof.Gen.ReferenceIdeal.Read
import proofs.«181424_g53360673685582_cont_9to1c4b_587_19_alg».proof.Proof.Spec
import proofs.«181424_g53360673685582_cont_9to1c4b_587_19_alg».proof.Proof.ResultSpec
import Idealize.ShloMosaic.Lib.ValueIdx

noncomputable section

namespace Cert.ReferenceIdeal.RefValue

open Cert.ReferenceIdeal Cert.ReferenceIdeal.Read Idealize.ShloMosaic Idealize.ShloMosaic.ValueIdx

/-- The hidden layer at row `r`, unit `j`: the first contraction plus the bias, then the maximum with the zero pattern. -/
theorem hidden_apply (x0 : (⟨S16384x2048, .f32⟩ : BufTy).Contents (Elt Ideal)) (x1 : (⟨S2048x2048, .f32⟩ : BufTy).Contents (Elt Ideal)) (x2 : (⟨S2048, .f32⟩ : BufTy).Contents (Elt Ideal)) (r : Fin 16384) (j : Fin 2048) :
    val_main_v4 (F := Ideal) x0 x1 x2 (ix2 r j)
      = Cert.Spec.hidden (fun k => x0 (ix2 r k)) (fun k j => x1 (ix2 k j)) (fun j => x2 (ix1 j)) j := by
  have el : ∀ k : Fin 2048, lidx_main_v0 (ix2 r j) k = ix2 r k := fun k =>
    funext fun a => Fin.ext (by match a with | ⟨0, _⟩ => rfl | ⟨1, _⟩ => rfl)
  have er : ∀ k : Fin 2048, ridx_main_v0 (ix2 r j) k = ix2 k j := fun k =>
    funext fun a => Fin.ext (by match a with | ⟨0, _⟩ => rfl | ⟨1, _⟩ => rfl)
  have eb : idx_main_v1 (idx_main_v2 (ix2 r j)) = ix1 j :=
    funext fun a => Fin.ext (by match a with | ⟨0, _⟩ => rfl)
  rw [val_main_v4_apply, val_main_v3_apply, val_main_v0_apply, val_main_v2_apply, val_main_v1_apply,
    val_main_call0_v0_apply, val_main_call0_cst_apply, eb]
  simp only [el, er, Ideal.addf_def, Ideal.maximumf_def, Ideal.ofBits_def]
  rfl

/-- Row `r` of the reference's result is `1 / (1 + e^{-z})` at the logit `z` of feature row `r`. -/
theorem result_apply (x0 : (⟨S16384x2048, .f32⟩ : BufTy).Contents (Elt Ideal)) (x1 : (⟨S2048x2048, .f32⟩ : BufTy).Contents (Elt Ideal)) (x2 : (⟨S2048, .f32⟩ : BufTy).Contents (Elt Ideal)) (x3 : (⟨S2048x1, .f32⟩ : BufTy).Contents (Elt Ideal)) (x4 : (⟨S1, .f32⟩ : BufTy).Contents (Elt Ideal)) (r : Fin 16384) :
    val_main_v14 (F := Ideal) x0 x1 x2 x3 x4 (ix2 r (0 : Fin 1))
      = Cert.Spec.sigE (Cert.Spec.logit (fun k => x0 (ix2 r k)) (fun k j => x1 (ix2 k j)) (fun j => x2 (ix1 j)) (fun j => x3 (ix2 j (0 : Fin 1))) (x4 (ix1 (0 : Fin 1)))) := by
  have el : ∀ k : Fin 2048, lidx_main_v5 (ix2 r (0 : Fin 1)) k = ix2 r k := fun k =>
    funext fun a => Fin.ext (by match a with | ⟨0, _⟩ => rfl | ⟨1, _⟩ => rfl)
  have er : ∀ k : Fin 2048, ridx_main_v5 (ix2 r (0 : Fin 1)) k = ix2 k (0 : Fin 1) := fun k =>
    funext fun a => Fin.ext (by match a with | ⟨0, _⟩ => rfl | ⟨1, _⟩ => rfl)
  have eb : idx_main_v6 (idx_main_v7 (ix2 r (0 : Fin 1))) = ix1 (0 : Fin 1) :=
    funext fun a => Fin.ext (by match a with | ⟨0, _⟩ => rfl)
  rw [val_main_v14_apply, val_main_v13_apply, val_main_cst_0_apply, val_main_v12_apply, val_main_v11_apply,
    val_main_cst_apply, val_main_v10_apply, val_main_v9_apply, val_main_v8_apply, val_main_v5_apply,
    val_main_v7_apply, val_main_v6_apply, eb]
  simp only [el, er, hidden_apply, Ideal.hostDivf_def, Ideal.addf_def, Ideal.hostUnary_exp_def, Ideal.hostNegf_def,
    Ideal.negf_def, Ideal.ofBits_def]
  rfl

/-- The reference's whole result is the network's result function of its five arguments: at every row the two spellings
    of the logistic function agree. -/
theorem result_eq (x0 : (⟨S16384x2048, .f32⟩ : BufTy).Contents (Elt Ideal)) (x1 : (⟨S2048x2048, .f32⟩ : BufTy).Contents (Elt Ideal)) (x2 : (⟨S2048, .f32⟩ : BufTy).Contents (Elt Ideal)) (x3 : (⟨S2048x1, .f32⟩ : BufTy).Contents (Elt Ideal)) (x4 : (⟨S1, .f32⟩ : BufTy).Contents (Elt Ideal)) :
    val_main_v14 (F := Ideal) x0 x1 x2 x3 x4 = Cert.Spec.result x0 x1 x2 x3 x4 := by
  funext i
  obtain ⟨r, z, rfl⟩ : ∃ (r : Fin 16384) (z : Fin 1), i = ix2 r z := ⟨i 0, i 1, eq_ix2 i⟩
  obtain rfl : z = 0 := Subsingleton.elim _ _
  rw [result_apply, ← Cert.Spec.sigT_eq_sigE, Cert.Spec.result_apply]

end Cert.ReferenceIdeal.RefValue

end
-- ==== Proof.lean ====
/-
  The proof of `Cert.Claim` (proofs.«181424_g53360673685582_cont_9to1c4b_587_19_alg».proof.Defs).
  The kernel computes `sigmoid (relu (x · W1 + b1) · W2 + b2)`, the sigmoid spelt through the hyperbolic tangent,
  `1/2 · tanh (z/2) + 1/2`, block by block over sixteen blocks of rows, the weights kept in a buffer across the grid's
  points. The reference computes it whole, the sigmoid spelt `1 / (1 + e^{-z})`. On the extended reals the two
  spellings are one function, the infinities included, so the two results are equal entry by entry and no finiteness
  of the inputs is used: both programs end at `Cert.Spec.result` of the five argument arrays.
  The frames are the generated ones (the reference's is its run's second half); the kernel is its own idealization
  (no operation was rewritten), so that claim is `True`.
-/
import proofs.«181424_g53360673685582_cont_9to1c4b_587_19_alg».proof.Defs
import proofs.«181424_g53360673685582_cont_9to1c4b_587_19_alg».proof.Proof.Gen.Kernel
import proofs.«181424_g53360673685582_cont_9to1c4b_587_19_alg».proof.Proof.Gen.Kernel.Skeleton
import proofs.«181424_g53360673685582_cont_9to1c4b_587_19_alg».proof.Proof.Gen.Kernel.Launch
import proofs.«181424_g53360673685582_cont_9to1c4b_587_19_alg».proof.Proof.Gen.Kernel.Points
import proofs.«181424_g53360673685582_cont_9to1c4b_587_19_alg».proof.Proof.Gen.Kernel.Frame
import proofs.«181424_g53360673685582_cont_9to1c4b_587_19_alg».proof.Proof.Gen.KernelIdeal
import proofs.«181424_g53360673685582_cont_9to1c4b_587_19_alg».proof.Proof.Gen.KernelIdeal.Skeleton
import proofs.«181424_g53360673685582_cont_9to1c4b_587_19_alg».proof.Proof.Gen.KernelIdeal.Launch
import proofs.«181424_g53360673685582_cont_9to1c4b_587_19_alg».proof.Proof.Gen.KernelIdeal.Points
import proofs.«181424_g53360673685582_cont_9to1c4b_587_19_alg».proof.Proof.Gen.KernelIdeal.Frame
import proofs.«181424_g53360673685582_cont_9to1c4b_587_19_alg».proof.Proof.Gen.ReferenceIdeal
import proofs.«181424_g53360673685582_cont_9to1c4b_587_19_alg».proof.Proof.Gen.Pre_finite_inputs
import proofs.«181424_g53360673685582_cont_9to1c4b_587_19_alg».proof.Proof.Gen.ReferenceIdeal.Run
import proofs.«181424_g53360673685582_cont_9to1c4b_587_19_alg».proof.Proof.Gen.ReferenceIdeal.Read
import proofs.«181424_g53360673685582_cont_9to1c4b_587_19_alg».proof.Proof.KernelRun
import proofs.«181424_g53360673685582_cont_9to1c4b_587_19_alg».proof.Proof.RefValue
import Idealize.ShloMosaic.Adequacy
import Idealize.ShloMosaic.Init

noncomputable section

namespace Cert.Proof

open Idealize.ShloMosaic Idealize.SL.Sem Cert.Kernel

/-- The kernel as printed runs and leaves its arguments unchanged. -/
theorem frame_k : Cert.frame_Kernel := fun m ρ _ => Cert.Kernel.Gen.frame m ρ

/-- So does the kernel on the extended reals. -/
theorem frame_ki : Cert.frame_KernelIdeal := fun m ρ _ => Cert.KernelIdeal.Gen.frame m ρ

/-- And the reference: its run gives the result and the unchanged arguments; keep the latter. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel's result array ends at `Cert.Spec.result` of its arguments, and the reference's
    at the same function of its own, which agree with the kernel's. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
